-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : IVec S100000 32) (main_arg1 : IVec S2x1600000 32) (main_arg2 : FVec F S100000x64 .f32) (main_arg3 : FVec F S64x64 .f32) (main_arg4 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000 : Shape := ⟨1, ![100000]⟩
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S10000x64 : Shape := ⟨2, ![10000, 64]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 73
  | .vmem => 10
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x64, .f32⟩
  | .hbm, ⟨14, _⟩ => ⟨S64x64, .f32⟩
  | .hbm, ⟨15, _⟩ => ⟨S100000x64, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S100000x1_S100000x64_1_0_n_n_0_1_164_wf : GatherDims.WF S100000x64 S100000x1 S100000x64 [1] [0] [] [0] [] 1 ![1, 64]
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000 : Shape := ⟨1, ![100000]⟩
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x64, .f32⟩
  | .hbm, ⟨14, _⟩ => ⟨S64x64, .f32⟩
  | .hbm, ⟨15, _⟩ => ⟨S100000x64, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Aggregate.lean ====
/-
  What both programs do between the linear map and the bias: graph-convolution message passing, as pure functions.

  With `N = 100000` nodes and `E = 1600000` edges, `edges` is a 2 × E table of node ids (row 0 the sources, row 1 the
  targets). Both programs

    * append a self loop `i → i` for every node to the edge list (`sources`, `targets`: E + N ids each);
    * count each node's in-degree, self loop included, by scatter-adding ones at the targets (`degree`);
    * take `deg^(-1/2)` where the degree is positive and zero elsewhere (`invSqrtDegree`);
    * weight every edge by the product of that quantity at its two ends (`edgeNorm`), each end looked up as jnp
      indexes with a signed id (a negative id counts from the end: `wrapped`);
    * gather the transformed feature row of every edge's source, scale it by the edge's weight, and scatter-add it into
      the row of the edge's target, starting from zeros (`aggregate`).

  The same goes for the embedding `lookup` (rows of the table gathered by `nodes`, wrapped) and for `W` transposed.
  The functions are written once, over the reference's vocabulary of shapes and dimension records; the kernel's
  program spells the very same operations over its own copy of that vocabulary.
-/
import proofs.«177196_j19559281066058_1_alg».proof.Proof.Gen.ReferenceIdeal

noncomputable section

namespace Cert.ReferenceIdeal.Graph

open Cert.ReferenceIdeal Cert.ReferenceIdeal.Gen Idealize.ShloMosaic Idealize.ShloMosaic.TcCoe Idealize.SL.Sem

variable {F : FTy → Type} [FloatOps F]

/-- Node features: the rows of the embedding table at the ids `nodes` (a negative id counts from the end). -/
def lookup (tbl : (⟨S100000x64, .f32⟩ : BufTy).Contents (Elt F)) (nodes : (⟨S100000, .i32⟩ : BufTy).Contents (Elt F)) :
    (⟨S100000x64, .f32⟩ : BufTy).Contents (Elt F) :=
  Host.gather gather_S100000x64_S100000x1_S100000x64_1_0_n_n_0_1_164 tbl (broadcastInDim S100000x1 ![0] bcast_S100000_S100000x1_0 (select (cmpi .slt nodes (broadcastInDim S100000 ![] bcast_S_S100000 (constantI S_ 32 0#32))) (addi nodes (broadcastInDim S100000 ![] bcast_S_S100000 (constantI S_ 32 100000#32))) nodes))

/-- `Wᵀ`. -/
def transposed (w : (⟨S64x64, .f32⟩ : BufTy).Contents (Elt F)) : (⟨S64x64, .f32⟩ : BufTy).Contents (Elt F) :=
  transpose S64x64 [1, 0] w transposes_S64x64_S64x64_1_0

/-- The source of every edge, then of every self loop: row 0 of `edges`, then `0 … N − 1`. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target of every edge, then of every self loop: row 1 of `edges`, then `0 … N − 1`. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A signed id as jnp indexes with it: `v + N` where `v < 0`, else `v`. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- One value per edge as a column (the layout a gather or scatter takes its index vectors in). -/
def asColumn {α : Type} (v : S1700000.Idx → α) : S1700000x1.Idx → α :=
  broadcastInDim S1700000x1 ![0] bcast_S1700000_S1700000x1_0 v

/-- In-degree of every node, its self loop included: ones scatter-added at the targets. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (asColumn (targets (F := F) e)) (broadcastInDim S1700000 ![] bcast_S_S1700000 (constant S_ .f32 0x3F800000#32))

/-- `deg^(-1/2)` where the degree is positive, zero elsewhere. -/
def invSqrtDegree (e : (⟨S2x1600000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (constant S_ .f32 0x00000000#32))

/-- The symmetric normalisation of every edge: `deg^(-1/2)` at its source times `deg^(-1/2)` at its target. -/
def edgeNorm (e : (⟨S2x1600000, .i32⟩ : BufTy).Contents (Elt F)) : (⟨S1700000, .f32⟩ : BufTy).Contents (Elt F) :=
  mulf (Host.gather gather_S100000_S1700000x1_S1700000_n_0_n_n_0_1_1 (invSqrtDegree e) (asColumn (wrapped (F := F) (sources (F := F) e))))
    (Host.gather gather_S100000_S1700000x1_S1700000_n_0_n_n_0_1_1 (invSqrtDegree e) (asColumn (wrapped (F := F) (targets (F := F) e))))

/-- Message passing: every edge carries its source's transformed row, scaled by the edge's weight, into its target's
    row; the rows start at zero. -/
def aggregate (xw : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (asColumn (targets (F := F) e))
    (mulf (Host.gather gather_S100000x64_S1700000x1_S1700000x64_1_0_n_n_0_1_164 xw (asColumn (wrapped (F := F) (sources (F := F) e))))
      (broadcastInDim S1700000x64 ![0, 1] bcast_S1700000x1_S1700000x64_0_1 (asColumn (edgeNorm e))))

end Cert.ReferenceIdeal.Graph

end
-- ==== Proof.RefValue.lean ====
/-
  The reference's result, read as: positive part of (aggregated linear features + bias).

  The reference's run ends with its result at one long term of the argument arrays. That term is, literally,

      max (aggregate (lookup emb nodes ·ᵈ Wᵀ) edges + spread b, 0)

  where `·ᵈ` is the host's `dot_general` contracting the features' columns with `Wᵀ`'s rows, `spread b` is `b` as a
  1 × 64 row repeated over the 100000 rows, and `lookup`, `aggregate` are the message-passing functions named in
  `Graph`: unfolding the names on both sides leaves the same term.
-/
import proofs.«177196_j19559281066058_1_alg».proof.Proof.RefRun
import proofs.«177196_j19559281066058_1_alg».proof.Proof.Aggregate

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's last three steps on the aggregated features `a`: add the bias row to every row, take the maximum
    with zero. -/
def biasThenRelu (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The reference's linear map: the host's `dot_general` of the features with `Wᵀ`. -/
def hostLinear (x : (⟨S100000x64, .f32⟩ : BufTy).Contents (Elt F)) (wt : (⟨S64x64, .f32⟩ : BufTy).Contents (Elt F)) :
    (⟨S100000x64, .f32⟩ : BufTy).Contents (Elt F) :=
  Host.dotGeneral dot_S100000x64_S64x64_S100000x64_1_0_0_1_n_n none x wt

/-- The run's result term is that composition of the five argument arrays. -/
theorem result_eq (m : (ℓ : Loc nD τ sig) → Buf (Elt F) ℓ) (c : Dev nD) :
    Cert.ReferenceIdeal.ValueP.res_main_v55 m c
      = biasThenRelu (Graph.aggregate
          (hostLinear (Graph.lookup (m ((c.tc : Thread nD τ).loc main_arg2)) (m ((c.tc : Thread nD τ).loc main_arg0)))
            (Graph.transposed (m ((c.tc : Thread nD τ).loc main_arg3))))
          (m ((c.tc : Thread nD τ).loc main_arg1)))
        (m ((c.tc : Thread nD τ).loc main_arg4)) := by
  unfold Cert.ReferenceIdeal.ValueP.res_main_v55
  rfl

end Cert.ReferenceIdeal.RefValue

end
-- ==== Proof.KernelRun.lean ====
/-
  The idealized kernel's run with its result NAMED.

  @main is: ten host operations (the embedding rows gathered by `nodes`, `W` transposed), the first pallas_call (the
  linear map, ten row blocks), the host operations of message passing (self loops, in-degrees, the symmetric
  normalisation, the gather of source rows, the scatter-add to targets, `b` reshaped to a row), the second pallas_call (bias and the
  positive part, ten row blocks). The buffer contents at each of these boundaries are a fold through @main from the
  launch memory; the last one, after the second call's write-backs, is `Gen.W6 m ρ c`.

  Every weakly fair execution terminates, and the final state holds at every unscoped buffer what that last
  boundary holds: so the result buffer `main_v53` ends at `W6 m ρ c` there, and each argument array ends as launched
  (the fold at an argument walks back to the launch memory, nothing writes it).
-/
import proofs.«177196_j19559281066058_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result read at the last boundary: the launch over @main's six segments ends in a state whose
    unscoped buffers hold the last boundary's contents; the result buffer is one of them, and so is each argument. -/
theorem run : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Named

end
-- ==== Proof.Linear.lean ====
/-
  The first pallas_call, read as ONE function of the arrays it is entered with.

  The call's grid has ten points; point `t` stages rows `10000·t … 10000·t + 9999` of the node features `x`
  (all 64 columns), the whole 64 × 64 matrix `wt` (the same block at every point), multiplies them on the MXU into a
  zero accumulator, and writes the product back to rows `10000·t …` of the result. At the ideal values the casts to
  bf16 are the identity and the product into zero is the plain sum over the contraction index, so what point `t`
  writes back is block `t` of the whole-array map

      lin x wt (r, j) = ∑ k : Fin 64, x (r, k) · wt (k, j),

  and the ten blocks tile the 100000 rows (row `r` lies in block `r / 10000`): after the call the result array IS
  `lin` of the two input arrays as the call found them. The statement is over a parameter `V`, the buffer contents
  when the call is entered.
-/
import proofs.«177196_j19559281066058_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

/-! ## The linear map of whole arrays -/

/-- Entry `(row of i, k)` of the feature array. -/
abbrev atRow (i : S100000x64.Idx) (k : Fin 64) : S100000x64.Idx := fun a => match a with
  | ⟨0, _⟩ => ⟨(i 0).val, (i 0).isLt⟩
  | ⟨1, _⟩ => ⟨k.val, k.isLt⟩
/-- Entry `(k, column of i)` of the 64 × 64 matrix. -/
abbrev atCol (i : S100000x64.Idx) (k : Fin 64) : S64x64.Idx := fun a => match a with
  | ⟨0, _⟩ => ⟨k.val, k.isLt⟩
  | ⟨1, _⟩ => ⟨(i 1).val, (i 1).isLt⟩

/-- `x · wt` on the extended reals: entry `(r, j)` is the sum over `k` of `x (r, k) · wt (k, j)`. -/
def lin (x : S100000x64.Idx → EReal) (wt : S64x64.Idx → EReal) : S100000x64.Idx → EReal :=
  fun i => ∑ k : Fin 64, x (atRow i k) * wt (atCol i k)

/-! ## One block's product -/

/-- Entry `(row of y, k)` of a 10000-row block. -/
abbrev blkRow (y : S10000x64.Idx) (k : Fin 64) : S10000x64.Idx := fun a => match a with
  | ⟨0, _⟩ => ⟨(y 0).val, (y 0).isLt⟩
  | ⟨1, _⟩ => ⟨k.val, k.isLt⟩
/-- Entry `(k, column of y)` of the matrix block. -/
abbrev blkCol (y : S10000x64.Idx) (k : Fin 64) : S64x64.Idx := fun a => match a with
  | ⟨0, _⟩ => ⟨k.val, k.isLt⟩
  | ⟨1, _⟩ => ⟨(y 1).val, (y 1).isLt⟩

/-- The dot's left operand index at output `y` and contraction index `q`: `(row of y, q)`. -/
theorem lhs_0 (y : S10000x64.Idx) (q : dot_S10000x64_S64x64_S10000x64_1_0_0_1_n_n.contr.Idx) :
    (dot_S10000x64_S64x64_S10000x64_1_0_0_1_n_n.lhsIdx y q 0).val = (y 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (y : S10000x64.Idx) (q : dot_S10000x64_S64x64_S10000x64_1_0_0_1_n_n.contr.Idx) :
    (dot_S10000x64_S64x64_S10000x64_1_0_0_1_n_n.lhsIdx y q 1).val = (q ⟨0, by decide⟩).val :=
  dot_S10000x64_S64x64_S10000x64_1_0_0_1_n_n.lhsIdx_val_of_single rfl y q
/-- The right operand index: `(q, column of y)`. -/
theorem rhs_0 (y : S10000x64.Idx) (q : dot_S10000x64_S64x64_S10000x64_1_0_0_1_n_n.contr.Idx) :
    (dot_S10000x64_S64x64_S10000x64_1_0_0_1_n_n.rhsIdx y q 0).val = (q ⟨0, by decide⟩).val :=
  dot_S10000x64_S64x64_S10000x64_1_0_0_1_n_n.rhsIdx_val_of_single rfl y q
theorem rhs_1 (y : S10000x64.Idx) (q : dot_S10000x64_S64x64_S10000x64_1_0_0_1_n_n.contr.Idx) :
    (dot_S10000x64_S64x64_S10000x64_1_0_0_1_n_n.rhsIdx y q 1).val = (y 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at an entry of the block: the casts to bf16 and the shape casts are the identity, the
    product into the zero accumulator is the sum over the contraction index. -/
theorem pay_apply (x0 : Vec Ideal S10000x64 .f32) (x1 : Vec Ideal S64x64 .f32) (y : S10000x64.Idx) :
    k0_pay1 (F := Ideal) x0 x1 y = ∑ k : Fin 64, x0 (blkRow y k) * x1 (blkCol y k) := by
  unfold k0_pay1
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = blkRow y k := funext fun a => Fin.ext (by
    match a with
    | ⟨0, _⟩ => exact lhs_0 _ _
    | ⟨1, _⟩ => exact (lhs_1 _ _).trans hk)
  have er : dot_S10000x64_S64x64_S10000x64_1_0_0_1_n_n.rhsIdx y ((ValueIdx.contrEquiv1 dot_S10000x64_S64x64_S10000x64_1_0_0_1_n_n 64 rfl rfl).symm k) = blkCol y k := funext fun a => Fin.ext (by
    match a with
    | ⟨0, _⟩ => exact (rhs_0 _ _).trans hk
    | ⟨1, _⟩ => exact rhs_1 _ _)
  rw [el, er, shapeCast_self, shapeCast_self]
  rfl

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the feature window moves with the result window along the rows, both
    at column block 0; the matrix window stays at block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of `lin` of the two input arrays. -/
theorem flushed_eq (c : Dev nD) (t : Fin cfg0.N) :
    (dat0 (F := Ideal) V c).flushed 2 t
      = ((cfg0.win 2).blk t).view.read (Elt Ideal) (lin (V c main_v6) (V c main_v7)) := by
  show (cfg0.win 2).cut (grid0.coords t) ((dat0 (F := Ideal) V c).after 2 t) = _
  rw [after0_2]
  unfold out0_2
  rw [View.canon_unit_zero origin]
  simp only [View.ld_unit_zero (S := S10000x64) origin, View.ld_unit_zero (S := S64x64) origin]
  obtain ⟨e0, e1, e2, e3, e4⟩ := idx_facts t
  funext j
  show k0_pay1 (F := Ideal) (iblk0 V c 0 t) (iblk0 V c 1 t) j
    = lin (V c main_v6) (V c main_v7) (((cfg0.win 2).blk t).view.emb j)
  rw [pay_apply]
  unfold lin
  refine Finset.sum_congr rfl fun k _ => ?_
  have h0 : ((cfg0.win 0).blk t).view.emb (blkRow j k) = atRow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (blkCol j k) = atCol (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  refine congrArg₂ (fun (p q : EReal) => p * q) ?_ ?_
  · show V c main_v6 (((cfg0.win 0).blk t).view.emb (blkRow j k)) = V c main_v6 (atRow (((cfg0.win 2).blk t).view.emb j) k)
    rw [h0]
  · show V c main_v7 (((cfg0.win 1).blk t).view.emb (blkCol j k)) = V c main_v7 (atCol (((cfg0.win 2).blk t).view.emb j) k)
    rw [h1]

/-- An index of the result array lies in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v8).slice (win0_2.rect t)).set ↔ _
  rw [View.set_slice_whole, Rect.mem_set_unit]
  exact Iff.rfl

/-- Row `r` lies in the block of the point whose row-block index is `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call the result array is `lin` of the feature array and the matrix as the call found them. -/
theorem final (c : Dev nD) :
    (dat0 (F := Ideal) V c).arrAt 2 cfg0.N = lin (V c main_v6) (V c main_v7) :=
  (dat0 (F := Ideal) V c).arrAt_eq_of_cover 2 (lin (V c main_v6) (V c main_v7)) (fun t _ => flushed_eq V c t) cover

end Cert.KernelIdeal.Linear

end
-- ==== Proof.BiasRelu.lean ====
/-
  The second pallas_call, read as ONE function of the arrays it is entered with.

  Its grid has ten points; point `t` stages rows `10000·t … 10000·t + 9999` of the aggregated features `a` and the
  bias as one 1 × 64 row `b2` (the same block at every point), adds the row to every row of the block, takes the
  maximum with zero, and writes the block back to the same rows of the result. So what point `t` writes back is block
  `t` of the whole-array map

      biasRelu a b2 (r, j) = max (a (r, j) + b2 (0, j)) 0,

  and the ten blocks tile the 100000 rows: after the call the result array IS `biasRelu` of the two input arrays as
  the call found them. The statement is over a parameter `V`, the buffer contents when the call is entered.
-/
import proofs.«177196_j19559281066058_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.Pipeline (Dat)

/-! ## Bias and positive part of whole arrays -/

/-- Entry `(0, column of i)` of the one-row bias. -/
abbrev biasAt (i : S100000x64.Idx) : S1x64.Idx := fun a => match a with
  | ⟨0, _⟩ => ⟨0, Nat.one_pos⟩
  | ⟨1, _⟩ => ⟨(i 1).val, (i 1).isLt⟩

/-- `max (a + b2, 0)` on the extended reals, the bias row spread over every row (the zero is the f32 zero word's value). -/
def biasRelu (a : S100000x64.Idx → EReal) (b2 : S1x64.Idx → EReal) : S100000x64.Idx → EReal :=
  fun i => max (a i + b2 (biasAt i)) (Ideal.ofBits .f32 0x00000000#32)

/-! ## One block -/

/-- Entry `(0, column of y)` of the bias block. -/
abbrev blkBiasAt (y : S10000x64.Idx) : S1x64.Idx := fun a => match a with
  | ⟨0, _⟩ => ⟨0, Nat.one_pos⟩
  | ⟨1, _⟩ => ⟨(y 1).val, (y 1).isLt⟩

/-- The body's stored value at an entry of the block: the shape casts are the identity, the row broadcast reads the
    bias at the entry's column. -/
theorem pay_apply (x0 : Vec Ideal S10000x64 .f32) (x1 : Vec Ideal S1x64 .f32) (y : S10000x64.Idx) :
    k1_pay1 (F := Ideal) x0 x1 y = max (x0 y + x1 (blkBiasAt y)) (Ideal.ofBits .f32 0x00000000#32) := by
  unfold k1_pay1
  show max (shapeCast S10000x64 x0 shapeCasts_S10000x64_S10000x64 y
      + broadcastTo S10000x64 (shapeCast S1x64 x1 shapeCasts_S1x64_S1x64) broadcasts_S1x64_S10000x64 y) (Ideal.ofBits .f32 0x00000000#32) = _
  rw [shapeCast_self, shapeCast_self,
    broadcastTo_apply x1 broadcasts_S1x64_S10000x64 y (blkBiasAt y) (fun a => match a with
      | ⟨0, _⟩ => by show 0 = if (1 : Nat) = 1 then 0 else _; rw [if_pos rfl]
      | ⟨1, _⟩ => by show (y 1).val = if (64 : Nat) = 1 then 0 else (y 1).val; rw [if_neg (by decide)])]

/-! ## From blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the input window moves with the result window along the rows, both at
    column block 0; the bias window stays at block (0, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (1 : Fin 2) = 0 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of `biasRelu` of the two input arrays. -/
theorem flushed_eq (c : Dev nD) (t : Fin cfg1.N) :
    (dat1 (F := Ideal) V c).flushed 2 t
      = ((cfg1.win 2).blk t).view.read (Elt Ideal) (biasRelu (V c main_v51) (V c main_v52)) := by
  show (cfg1.win 2).cut (grid1.coords t) ((dat1 (F := Ideal) V c).after 2 t) = _
  rw [after1_2]
  unfold out1_2
  rw [View.canon_unit_zero origin]
  simp only [View.ld_unit_zero (S := S10000x64) origin, View.ld_unit_zero (S := S1x64) origin]
  obtain ⟨e0, e1, e2, e3, e4⟩ := idx_facts t
  funext j
  show k1_pay1 (F := Ideal) (iblk1 V c 0 t) (iblk1 V c 1 t) j
    = biasRelu (V c main_v51) (V c main_v52) (((cfg1.win 2).blk t).view.emb j)
  rw [pay_apply]
  unfold biasRelu
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (blkBiasAt j) = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  refine congrArg₂ (fun (p q : EReal) => max (p + q) (Ideal.ofBits .f32 0x00000000#32)) ?_ ?_
  · show V c main_v51 (((cfg1.win 0).blk t).view.emb j) = V c main_v51 (((cfg1.win 2).blk t).view.emb j)
    rw [h0]
  · show V c main_v52 (((cfg1.win 1).blk t).view.emb (blkBiasAt j)) = V c main_v52 (biasAt (((cfg1.win 2).blk t).view.emb j))
    rw [h1]

/-- An index of the result array lies in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Row `r` lies in the block of the point whose row-block index is `r / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call the result array is `biasRelu` of the aggregated features and the bias row as the call found them. -/
theorem final (c : Dev nD) :
    (dat1 (F := Ideal) V c).arrAt 2 cfg1.N = biasRelu (V c main_v51) (V c main_v52) :=
  (dat1 (F := Ideal) V c).arrAt_eq_of_cover 2 (biasRelu (V c main_v51) (V c main_v52)) (fun t _ => flushed_eq V c t) cover

end Cert.KernelIdeal.BiasRelu

end
-- ==== Proof.KernelReads.lean ====
/-
  The host operations of the kernel's program, read back as the message-passing functions.

  The kernel's @main runs the same host operations as the reference around its two pallas_calls. Each stretch is a
  fold of single-assignment operations over the buffer contents `X` it starts from; read at one buffer, the fold is the
  composition of the operations that feed that buffer, applied to `X` at the buffers the stretch does not write:

    * before the first call: the features are `lookup` of the table and the node ids, the matrix is `W` transposed;
    * between the calls: the second call's input is `aggregate` of the first call's result and the edge table, and its
      bias operand is `b` as a 1 × 64 row;
    * no stretch writes an argument array.

  `X` stays a variable: nothing before the stretch is opened. The kernel's program spells the operations over its
  own copy of the shape and dimension-record vocabulary; the two spellings unfold to the same terms.
-/
import proofs.«177196_j19559281066058_1_alg».proof.Proof.Gen.KernelIdeal.Launch
import proofs.«177196_j19559281066058_1_alg».proof.Proof.Aggregate
import Idealize.ShloMosaic.Lib.StableHlo.Run

set_option maxRecDepth 16384

noncomputable section

namespace Cert.KernelIdeal.Reads

open Cert.KernelIdeal Cert.KernelIdeal.Gen Idealize.ShloMosaic Idealize.ShloMosaic.TcCoe Idealize.SL.Sem Idealize.ShloMosaic.StableHlo

variable {F : FTy → Type} [FloatOps F]
variable (X : Valuation τ sig (Elt F))

/-! ## Before the first call -/

/-- The first call's feature operand: the embedding rows at the node ids. -/
theorem features : after hostOps0 X (Proc.devRef .tc main_v6)
    = Cert.ReferenceIdeal.Graph.lookup (X (Proc.devRef .tc main_arg2)) (X (Proc.devRef .tc main_arg0)) := by
  after_results_simp <;> rfl

/-- Its matrix operand: `W` transposed. -/
theorem matrix : after hostOps0 X (Proc.devRef .tc main_v7)
    = Cert.ReferenceIdeal.Graph.transposed (X (Proc.devRef .tc main_arg3)) := by
  after_results_simp <;> rfl

/-- The edge table and the bias pass through untouched. -/
theorem edges0 : after hostOps0 X (Proc.devRef .tc main_arg1) = X (Proc.devRef .tc main_arg1) := by
  after_results_simp <;> rfl
theorem bias0 : after hostOps0 X (Proc.devRef .tc main_arg4) = X (Proc.devRef .tc main_arg4) := by
  after_results_simp <;> rfl

/-! ## Between the calls -/

/-- The second call's bias operand: `b` as one row. -/
theorem biasRow : after hostOps1_2 (after hostOps1_1 (after hostOps1 X)) (Proc.devRef .tc main_v52)
    = shapeCast S1x64 (X (Proc.devRef .tc main_arg4)) shapeCasts_S64_S1x64 := by
  after_results_simp <;> rfl

/-- The second call's input: message passing over the first call's result. -/
theorem aggregated : after hostOps1_2 (after hostOps1_1 (after hostOps1 X)) (Proc.devRef .tc main_v51)
    = Cert.ReferenceIdeal.Graph.aggregate (X (Proc.devRef .tc main_v8)) (X (Proc.devRef .tc main_arg1)) := by
  after_results_simp <;> rfl

end Cert.KernelIdeal.Reads

end
-- ==== Proof.Bridge.lean ====
/-
  The two places where the programs differ, each an equality of functions on the extended reals.

  1. The linear map. The kernel's first call leaves `lin x wt (r, j) = ∑ k, x (r, k) · wt (k, j)`; the reference applies
     the host's `dot_general` contracting axis 1 of `x` with axis 0 of `wt`, which at the ideal values is the same sum
     over its one contraction index. Only re-indexing the sum is needed (addition of extended reals is commutative and
     associative; no entry has to be finite).

  2. The bias and the positive part. The kernel's second call leaves `max (a (r, j) + b2 (0, j), 0)` with `b2` the bias
     reshaped to one row; the reference spreads `b` to a 1 × 64 row, spreads that over the 100000 rows, adds, and takes
     the maximum with a spread zero. Entry by entry both read `b` at `j` and the same zero word.
-/
import proofs.«177196_j19559281066058_1_alg».proof.Proof.Linear
import proofs.«177196_j19559281066058_1_alg».proof.Proof.BiasRelu
import proofs.«177196_j19559281066058_1_alg».proof.Proof.RefValue
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Cert.KernelIdeal.Linear (lin atRow atCol)
open Cert.KernelIdeal.BiasRelu (biasRelu biasAt)

/-! ## The linear map -/

/-- The host dot's left operand index at output `i` and contraction index `q`: `(row of i, q)`. -/
theorem lhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem lhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- Its right operand index: `(q, column of i)`. -/
theorem rhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

/-- The ten-block product of the kernel is the host's `dot_general`. -/
theorem lin_eq (x : S100000x64.Idx → EReal) (wt : S64x64.Idx → EReal) :
    lin x wt = Cert.ReferenceIdeal.RefValue.hostLinear (F := Ideal) x wt := by
  funext i
  refine Eq.symm ?_
  unfold Cert.ReferenceIdeal.RefValue.hostLinear lin
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = atRow i k := funext fun a => Fin.ext (by
    match a with
    | ⟨0, _⟩ => exact lhs_0 _ _
    | ⟨1, _⟩ => exact (lhs_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = atCol i k := funext fun a => Fin.ext (by
    match a with
    | ⟨0, _⟩ => exact (rhs_0 _ _).trans hk
    | ⟨1, _⟩ => exact rhs_1 _ _)
  rw [el, er]

/-! ## The bias and the positive part -/

/-- Entry `column of i` of the bias vector. -/
abbrev colOf (i : S100000x64.Idx) : S64.Idx := fun a => match a with
  | ⟨0, _⟩ => ⟨(i 1).val, (i 1).isLt⟩

/-- The kernel's bias-and-positive-part over the reshaped bias is the reference's over the spread bias. -/
theorem biasRelu_eq (a : S100000x64.Idx → EReal) (b : S64.Idx → EReal) :
    biasRelu a (shapeCast S1x64 b shapeCasts_S64_S1x64) = Cert.ReferenceIdeal.RefValue.biasThenRelu (F := Ideal) a b := by
  funext i
  have hl : shapeCast S1x64 b shapeCasts_S64_S1x64 (biasAt i) = b (colOf i) :=
    shapeCast_apply b shapeCasts_S64_S1x64 (biasAt i) (colOf i) (by
      rw [Shape.rowMajor_val_two, Shape.rowMajor_val_one]
      show (i 1).val = 0 * 64 + (i 1).val
      omega)
  have hr1 : broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) i
      = (broadcastInDim Cert.ReferenceIdeal.S1x64 ![1] Cert.ReferenceIdeal.Gen.bcast_S64_S1x64_1 b) (biasAt i) :=
    broadcastInDim_apply _ Cert.ReferenceIdeal.Gen.bcast_S1x64_S100000x64_0_1 _ i (biasAt i) (fun ax => match ax with
      | ⟨0, _⟩ => by show 0 = if (1 : Nat) = 1 then 0 else (i 0).val; rw [if_pos rfl]
      | ⟨1, _⟩ => by show (i 1).val = if (64 : Nat) = 1 then 0 else (i 1).val; rw [if_neg (by decide)])
  have hr2 : broadcastInDim Cert.ReferenceIdeal.S1x64 ![1] Cert.ReferenceIdeal.Gen.bcast_S64_S1x64_1 b (biasAt i) = b (colOf i) :=
    broadcastInDim_apply _ Cert.ReferenceIdeal.Gen.bcast_S64_S1x64_1 b (biasAt i) (colOf i) (fun ax => match ax with
      | ⟨0, _⟩ => by show (i 1).val = if (64 : Nat) = 1 then 0 else (i 1).val; rw [if_neg (by decide)])
  show max (a i + shapeCast S1x64 b shapeCasts_S64_S1x64 (biasAt i)) (Ideal.ofBits .f32 0x00000000#32)
    = max (a i + broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) i) (Ideal.ofBits .f32 0x00000000#32)
  rw [hl, hr1, hr2]

end Cert.Bridge

end
-- ==== Proof.KernelValue.lean ====
/-
  The idealized kernel's result as one function of the five argument arrays.

  Walking the buffer contents back from the last boundary: the result buffer holds what the second call's write-backs
  leave, `biasRelu` of that call's two inputs; those are, by the host operations between the calls, `aggregate` of the
  first call's result with the edge table, and the bias as one row; the first call's result is `lin` of its two inputs,
  which the host operations before it make `lookup` of the table with the node ids, and `W` transposed. The edge table
  and the bias reach their readers unchanged from the launch memory (no host operation and no call writes an
  argument). With the two bridges this is the reference's own composition of the same five arrays.
-/
import proofs.«177196_j19559281066058_1_alg».proof.Proof.Gen.KernelIdeal.Frame
import proofs.«177196_j19559281066058_1_alg».proof.Proof.Linear
import proofs.«177196_j19559281066058_1_alg».proof.Proof.BiasRelu
import proofs.«177196_j19559281066058_1_alg».proof.Proof.KernelReads
import proofs.«177196_j19559281066058_1_alg».proof.Proof.Bridge

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The edge table when the second stretch of host operations reads it: as launched. -/
theorem edges_kept (c : Dev nD) : W2 m ρ c (Proc.devRef .tc main_arg1) = m ((c : Thread nD τ).loc main_arg1) :=
  (W2_of_ne m ρ c main_arg1 (by decide)).trans (Reads.edges0 (W0 m ρ c))

/-- The bias when the second stretch of host operations reads it: as launched. -/
theorem bias_kept (c : Dev nD) : W2 m ρ c (Proc.devRef .tc main_arg4) = m ((c : Thread nD τ).loc main_arg4) :=
  (W2_of_ne m ρ c main_arg4 (by decide)).trans (Reads.bias0 (W0 m ρ c))

/-- The first call's result: the linear map of the looked-up features with `Wᵀ`. -/
theorem linear_out (c : Dev nD) : W2 m ρ c (Proc.devRef .tc main_v8)
    = Linear.lin (Cert.ReferenceIdeal.Graph.lookup (m ((c : Thread nD τ).loc main_arg2)) (m ((c : Thread nD τ).loc main_arg0)))
        (Cert.ReferenceIdeal.Graph.transposed (m ((c : Thread nD τ).loc main_arg3))) := by
  have h6 : V1 m ρ c main_v6 = Cert.ReferenceIdeal.Graph.lookup (m ((c : Thread nD τ).loc main_arg2)) (m ((c : Thread nD τ).loc main_arg0)) :=
    Reads.features (W0 m ρ c)
  have h7 : V1 m ρ c main_v7 = Cert.ReferenceIdeal.Graph.transposed (m ((c : Thread nD τ).loc main_arg3)) :=
    Reads.matrix (W0 m ρ c)
  have h8 : W2 m ρ c (Proc.devRef .tc main_v8) = Linear.lin (V1 m ρ c main_v6) (V1 m ρ c main_v7) :=
    (W2_arr m ρ c 2).trans (Linear.final (V1 m ρ) c)
  rw [h8, h6, h7]

/-- The result buffer at the last boundary is the reference's composition of the launch contents of the five arguments. -/
theorem result (c : Dev nD) : W6 m ρ c (Proc.devRef .tc main_v53)
    = Cert.ReferenceIdeal.RefValue.biasThenRelu (F := Ideal)
        (Cert.ReferenceIdeal.Graph.aggregate
          (Cert.ReferenceIdeal.RefValue.hostLinear
            (Cert.ReferenceIdeal.Graph.lookup (m ((c : Thread nD τ).loc main_arg2)) (m ((c : Thread nD τ).loc main_arg0)))
            (Cert.ReferenceIdeal.Graph.transposed (m ((c : Thread nD τ).loc main_arg3))))
          (m ((c : Thread nD τ).loc main_arg1)))
        (m ((c : Thread nD τ).loc main_arg4)) := by
  have h53 : W6 m ρ c (Proc.devRef .tc main_v53) = BiasRelu.biasRelu (V5 m ρ c main_v51) (V5 m ρ c main_v52) :=
    (W6_arr m ρ c 2).trans (BiasRelu.final (V5 m ρ) c)
  have h51 : V5 m ρ c main_v51
      = Cert.ReferenceIdeal.Graph.aggregate (W2 m ρ c (Proc.devRef .tc main_v8)) (W2 m ρ c (Proc.devRef .tc main_arg1)) :=
    Reads.aggregated (W2 m ρ c)
  have h52 : V5 m ρ c main_v52 = shapeCast S1x64 (W2 m ρ c (Proc.devRef .tc main_arg4)) shapeCasts_S64_S1x64 :=
    Reads.biasRow (W2 m ρ c)
  rw [h53, h51, h52, edges_kept m ρ c, bias_kept m ρ c, linear_out m ρ c, Bridge.lin_eq, Bridge.biasRelu_eq]

end Cert.KernelIdeal.KernelValue

end
-- ==== Proof.lean ====
/-
  Graph-convolution layer (embedding lookup, linear map, symmetric-normalised message passing, bias, positive part):
  a kernel with two pallas_calls against its jnp reference, equal on the extended reals.

  With `x = emb[nodes]` (100000 × 64), `W` (64 × 64), `b` (64) and the edge table, both programs compute

      max (aggregate (x · Wᵀ) edges + b, 0),

  where `aggregate` (self loops, in-degrees, `deg^(-1/2)` weights, gather of source rows, scatter-add to target rows) is
  the same chain of host operations in both. They differ in two places only. The reference forms `x · Wᵀ` by one host
  `dot_general`; the kernel by a pallas_call over ten blocks of 10000 rows, each block multiplied by the whole of `Wᵀ`
  into a zero accumulator after a cast to bf16 that is the identity at the ideal values: block by block the same sums
  `∑ k, x (r, k) · Wᵀ (k, j)`, and the ten blocks tile the rows. The reference adds the bias spread over the rows and takes
  the maximum with zero on the host; the kernel does it in a second pallas_call over the same ten row blocks with the
  bias staged as one row: entry by entry the same `max (a (r, j) + b (j), 0)`. Neither step needs a finite entry (a sum
  is only re-indexed, never redistributed), so the precondition is not used.

  The three frames: the two kernels' are the generated ones; the reference's is its run with the result forgotten.
  The idealization rewrote nothing, so `preserves` is trivial.
-/
import proofs.«177196_j19559281066058_1_alg».proof.Defs
import proofs.«177196_j19559281066058_1_alg».proof.Proof.Gen.Kernel
import proofs.«177196_j19559281066058_1_alg».proof.Proof.Gen.Kernel.Skeleton
import proofs.«177196_j19559281066058_1_alg».proof.Proof.Gen.Kernel.Launch
import proofs.«177196_j19559281066058_1_alg».proof.Proof.Gen.Kernel.Points
import proofs.«177196_j19559281066058_1_alg».proof.Proof.Gen.Kernel.Frame
import proofs.«177196_j19559281066058_1_alg».proof.Proof.Gen.KernelIdeal
import proofs.«177196_j19559281066058_1_alg».proof.Proof.Gen.KernelIdeal.Skeleton
import proofs.«177196_j19559281066058_1_alg».proof.Proof.Gen.KernelIdeal.Launch
import proofs.«177196_j19559281066058_1_alg».proof.Proof.Gen.KernelIdeal.Points
import proofs.«177196_j19559281066058_1_alg».proof.Proof.Gen.KernelIdeal.Frame
import proofs.«177196_j19559281066058_1_alg».proof.Proof.Gen.ReferenceIdeal
import proofs.«177196_j19559281066058_1_alg».proof.Proof.Gen.Pre_finite_inputs
import proofs.«177196_j19559281066058_1_alg».proof.Proof.RefRun
import proofs.«177196_j19559281066058_1_alg».proof.Proof.RefValue
import proofs.«177196_j19559281066058_1_alg».proof.Proof.KernelRun
import proofs.«177196_j19559281066058_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the kernel's own text read at the ideal values: nothing to preserve. -/
theorem preserves : Cert.preserves_Kernel_KernelIdeal := trivial

/-- Both runs end with the result at the reference's composition of the five argument arrays: the reference's run
    states it of its own memory, the kernel's result is that composition of the kernel's memory, and the two memories
    agree on the arguments. -/
theorem algebraic : Cert.algebraic_KernelIdeal_ReferenceIdeal := by
  intro m ρ m' ρ' _ hagree
  refine ⟨fun c => Cert.ReferenceIdeal.ValueP.res_main_v55 m' c, ?_, Cert.ReferenceIdeal.ValueP.run (F := Ideal) m' ρ'⟩
  refine (θ_run Cert.KernelIdeal.defs _ _).mono (fun r h c => ⟨(h c).1.trans ?_, (h c).2⟩)
    (Cert.KernelIdeal.Named.run (F := Ideal) m ρ)
  show Cert.KernelIdeal.Gen.W6 m ρ c (Proc.devRef .tc Cert.KernelIdeal.main_v53) = Cert.ReferenceIdeal.ValueP.res_main_v55 m' c
  rw [Cert.KernelIdeal.KernelValue.result m ρ c, Cert.ReferenceIdeal.RefValue.result_eq m' c,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
